-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x4096 : Shape := ⟨3, ![2, 2048, 4096]⟩
abbrev S16384x128x32 : Shape := ⟨3, ![16384, 128, 32]⟩
abbrev S16384x128 : Shape := ⟨2, ![16384, 128]⟩
abbrev S16384 : Shape := ⟨1, ![16384]⟩
abbrev S_ : Shape := ⟨0, ![]⟩

class Facts : Prop where
  bcast_S_S2x2048x4096 : S_.BroadcastsInDim S2x2048x4096 (![] : Fin 0 → Fin S2x2048x4096.rank)
  reducesTo_S2x2048x4096_S_d0_1_2 : S2x2048x4096.ReducesTo [0, 1, 2] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S2x2048x4096 .f32) (main_arg1 : IVec S16384x128x32 32) (main_arg2 : FVec F S16384x128 .f32) (main_arg3 : FVec F S16384 .f32) : IVec S_ 1 :=
  let main_v0 : FVec F S2x2048x4096 .f32 := Host.absf main_arg0
  let main_cst : FVec F S_ .f32 := constant S_ .f32 0x7F800000#32
  let main_v1 : FVec F S2x2048x4096 .f32 := broadcastInDim S2x2048x4096 ![] bcast_S_S2x2048x4096 main_cst
  let main_v2 : IVec S2x2048x4096 1 := cmpf .olt main_v0 main_v1
  let main_c : IVec S_ 1 := constantI S_ 1 1#1
  let main_v3 : IVec S_ 1 := (fun x v => Host.reduce IntOp.andi x v reducesTo_S2x2048x4096_S_d0_1_2 h_S_) main_v2 main_c
  let main_v4 : FVec F S16384x128 .f32 := Host.absf main_arg2
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_v9 : FVec F S16384 .f32 := Host.absf main_arg3
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S2x2048x4096 : Shape := ⟨3, ![2, 2048, 4096]⟩
abbrev S16384x128x32 : Shape := ⟨3, ![16384, 128, 32]⟩
abbrev S16384x128 : Shape := ⟨2, ![16384, 128]⟩
abbrev S16384 : Shape := ⟨1, ![16384]⟩
abbrev S4096x4096 : Shape := ⟨2, ![4096, 4096]⟩
abbrev S128x16384 : Shape := ⟨2, ![128, 16384]⟩
abbrev S1x16384 : Shape := ⟨2, ![1, 16384]⟩
abbrev S4096x16384 : Shape := ⟨2, ![4096, 16384]⟩
abbrev S2048x256 : Shape := ⟨2, ![2048, 256]⟩
abbrev S1024x8x32 : Shape := ⟨3, ![1024, 8, 32]⟩
abbrev S8x1024 : Shape := ⟨2, ![8, 1024]⟩
abbrev S1x1024 : Shape := ⟨2, ![1, 1024]⟩
abbrev S2048x1024 : Shape := ⟨2, ![2048, 1024]⟩
abbrev S1024x8 : Shape := ⟨2, ![1024, 8]⟩
abbrev S1024x8x1 : Shape := ⟨3, ![1024, 8, 1]⟩
abbrev S1024x256 : Shape := ⟨2, ![1024, 256]⟩
abbrev S2x2048x16384 : Shape := ⟨3, ![2, 2048, 16384]⟩

abbrev nBuf : Space → Nat
  | .hbm => 9
  | .vmem => 11
  | .smem => 0
  | _ => 0

abbrev bufTy : (tb : Table) → Fin (tcTables nBuf tb) → BufTy
  | .hbm, ⟨0, _⟩ => ⟨S2x2048x4096, .f32⟩
  | .hbm, ⟨1, _⟩ => ⟨S16384x128x32, .i32⟩
  | .hbm, ⟨2, _⟩ => ⟨S16384x128, .f32⟩
  | .hbm, ⟨3, _⟩ => ⟨S16384, .f32⟩
  | .hbm, ⟨4, _⟩ => ⟨S4096x4096, .f32⟩
  | .hbm, ⟨5, _⟩ => ⟨S128x16384, .f32⟩
  | .hbm, ⟨6, _⟩ => ⟨S1x16384, .f32⟩
  | .hbm, ⟨7, _⟩ => ⟨S4096x16384, .f32⟩
  | .hbm, ⟨8, _⟩ => ⟨S2x2048x16384, .f32⟩
  | .local _ .vmem, ⟨0, _⟩ => ⟨S2048x256, .f32⟩
  | .local _ .vmem, ⟨1, _⟩ => ⟨S2048x256, .f32⟩
  | .local _ .vmem, ⟨2, _⟩ => ⟨S1024x8x32, .i32⟩
  | .local _ .vmem, ⟨3, _⟩ => ⟨S1024x8x32, .i32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1x1024, .f32⟩
  | .local _ .vmem, ⟨8, _⟩ => ⟨S2048x1024, .f32⟩
  | .local _ .vmem, ⟨9, _⟩ => ⟨S2048x1024, .f32⟩
  | .local _ .vmem, ⟨10, _⟩ => ⟨S2048x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 16, 16], ![false, false, false]⟩

def k0_cond2 (i : grid0.Coords) : BitVec 1 :=
  let arg2 : BitVec 32 := BitVec.ofNat 32 (i 2).val
  let c15_i32 : BitVec 32 := 15#32
  let v22 : BitVec 1 := Scalar.cmpi .eq arg2 c15_i32
  let v23 : BitVec 32 := Scalar.extui v22
  let c0_i32_11 : BitVec 32 := 0#32
  let v24 : BitVec 1 := Scalar.cmpi .ne v23 c0_i32_11
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x8x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S2x2048x4096_S4096x4096 : S2x2048x4096.ShapeCasts S4096x4096
  transposes_S16384x128_S128x16384_1_0 : S16384x128.Transposes [1, 0] S128x16384
  shapeCasts_S16384_S1x16384 : S16384.ShapeCasts S1x16384
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S1024x8x32_S1024x8x32_0_0_0 : ∀ a, (![0, 0, 0] : Fin 3 → Nat) a + S1024x8x32.size a ≤ S1024x8x32.size a
  h_S1024x8x32 : 0 < S1024x8x32.numel
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  transposes_S8x1024_p1_0_S1024x8 : S8x1024.Transposes [1, 0] S1024x8
  shapeCasts_S1024x8_S1024x8x1 : S1024x8.ShapeCasts S1024x8x1
  broadcasts_S1024x8x1_S1024x8x32 : S1024x8x1.Broadcasts S1024x8x32
  shapeCasts_S1024x8x32_S1024x256 : S1024x8x32.ShapeCasts S1024x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S4096x16384_S2x2048x16384 : S4096x16384.ShapeCasts S2x2048x16384
  dot_S2048x256_S1024x256_S2048x1024_1_1_0_0_n_n_wf : DotDims.WF S2048x256 S1024x256 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S4096x4096.size a
  hwx0_0 : ∀ i : grid0.Coords, EltTy.bits .f32 = 32 ∨ (Rect.block (s := S4096x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x8x32.size a ≤ S16384x128x32.size a
  hwx0_1 : ∀ i : grid0.Coords, EltTy.bits .i32 = 32 ∨ (Rect.block (s := S16384x128x32) S1024x8x32.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S128x16384.size a
  hwx0_2 : ∀ i : grid0.Coords, EltTy.bits .f32 = 32 ∨ (Rect.block (s := S128x16384) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x16384.size a
  hwx0_3 : ∀ i : grid0.Coords, EltTy.bits .f32 = 32 ∨ (Rect.block (s := S1x16384) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S4096x16384.size a
  hwx0_4 : ∀ i : grid0.Coords, EltTy.bits .f32 = 32 ∨ (Rect.block (s := S4096x16384) S2048x1024.size (cc0_transform_4 i) (hinb0_4 i)).WholeWords (EltTy.packing .f32)

variable [Facts₀]

def dot_S2048x256_S1024x256_S2048x1024_1_1_0_0_n_n : DotDims S2048x256 S1024x256 S2048x1024 where
  lhsContracting := [1]
  rhsContracting := [1]
  lhsNonContracting := [0]
  rhsNonContracting := [0]
  lhsBatch := []
  rhsBatch := []
  wf := dot_S2048x256_S1024x256_S2048x1024_1_1_0_0_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x8x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x2048x4096 : Shape := ⟨3, ![2, 2048, 4096]⟩
abbrev S16384x128x32 : Shape := ⟨3, ![16384, 128, 32]⟩
abbrev S16384x128 : Shape := ⟨2, ![16384, 128]⟩
abbrev S16384 : Shape := ⟨1, ![16384]⟩
abbrev S16384x128x1 : Shape := ⟨3, ![16384, 128, 1]⟩
abbrev S16384x4096 : Shape := ⟨2, ![16384, 4096]⟩
abbrev S2x2048x16384 : Shape := ⟨3, ![2, 2048, 16384]⟩
abbrev S1x1x16384 : Shape := ⟨3, ![1, 1, 16384]⟩

abbrev nBuf : Space → Nat
  | .hbm => 13
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S16384x128x32, .i32⟩
  | .hbm, ⟨2, _⟩ => ⟨S16384x128, .f32⟩
  | .hbm, ⟨3, _⟩ => ⟨S16384, .f32⟩
  | .hbm, ⟨4, _⟩ => ⟨S16384x128x1, .f32⟩
  | .hbm, ⟨5, _⟩ => ⟨S16384x128x32, .f32⟩
  | .hbm, ⟨6, _⟩ => ⟨S16384x128x32, .f32⟩
  | .hbm, ⟨7, _⟩ => ⟨S16384x128x32, .f32⟩
  | .hbm, ⟨8, _⟩ => ⟨S16384x4096, .f32⟩
  | .hbm, ⟨9, _⟩ => ⟨S2x2048x16384, .f32⟩
  | .hbm, ⟨10, _⟩ => ⟨S1x1x16384, .f32⟩
  | .hbm, ⟨11, _⟩ => ⟨S2x2048x16384, .f32⟩
  | .hbm, ⟨12, _⟩ => ⟨S2x2048x16384, .f32⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  bcast_S16384x128_S16384x128x1_0_1 : S16384x128.BroadcastsInDim S16384x128x1 (![0, 1] : Fin 2 → Fin S16384x128x1.rank)
  bcast_S16384x128x1_S16384x128x32_0_1_2 : S16384x128x1.BroadcastsInDim S16384x128x32 (![0, 1, 2] : Fin 3 → Fin S16384x128x32.rank)
  shapeCasts_S16384x128x32_S16384x4096 : S16384x128x32.ShapeCasts S16384x4096
  bcast_S16384_S1x1x16384_2 : S16384.BroadcastsInDim S1x1x16384 (![2] : Fin 1 → Fin S1x1x16384.rank)
  bcast_S1x1x16384_S2x2048x16384_0_1_2 : S1x1x16384.BroadcastsInDim S2x2048x16384 (![0, 1, 2] : Fin 3 → Fin S2x2048x16384.rank)
  dot_S2x2048x4096_S16384x4096_S2x2048x16384_2_1_01_0_n_n_wf : DotDims.WF S2x2048x4096 S16384x4096 S2x2048x16384 [2] [1] [0, 1] [0] [] []

variable [Facts₀]

def dot_S2x2048x4096_S16384x4096_S2x2048x16384_2_1_01_0_n_n : DotDims S2x2048x4096 S16384x4096 S2x2048x16384 where
  lhsContracting := [2]
  rhsContracting := [1]
  lhsNonContracting := [0, 1]
  rhsNonContracting := [0]
  lhsBatch := []
  rhsBatch := []
  wf := dot_S2x2048x4096_S16384x4096_S2x2048x16384_2_1_01_0_n_n_wf

class Facts : Prop extends Facts₀ where

variable [Facts]
-- ==== Proof.Spec.lean ====
import Idealize.ShloMosaic.PureOps.Ideal
import Idealize.ShloMosaic.PureOps.Ideal.Laws
import Idealize.ShloMosaic.Lib.ValueIdx

/-!
  The mathematics of a block-quantized dense layer, over the extended reals.

  The weight matrix is stored as 32-element groups of integers, one scale per group: column `d` of output row `o`
  is `scales[o, d / 32] * qs[o, d / 32, d % 32]`. The layer's result at (b, s, o) is the dot product of row (b, s) of
  `x` with that dequantized row, plus `bias[o]`.

  A dot product over 4096 columns is the sum, over 16 consecutive runs of 256 columns, of the runs' dot products
  (`sum_blocks`): only associativity and commutativity of addition are used, which the extended reals have at
  the infinities too, so no finiteness of the inputs is needed.
-/

noncomputable section

open scoped BigOperators

namespace Cert.QDense

open Idealize.ShloMosaic Idealize.ShloMosaic.ValueIdx

/-! ## Splitting a sum into consecutive runs -/

/-- A sum over `a * b` consecutive naturals is the sum over `a` runs of the sums over each run's `b` members. -/
theorem sum_blocks {M : Type*} [AddCommMonoid M] (a b : ℕ) (f : ℕ → M) :
    ∑ d : Fin (a * b), f d.val = ∑ s ∈ Finset.range a, ∑ e : Fin b, f (b * s + e.val) := by
  rw [Finset.sum_range, ← Equiv.sum_comp finProdFinEquiv, Fintype.sum_prod_type]
  refine Finset.sum_congr rfl fun s _ => Finset.sum_congr rfl fun e _ => ?_
  rw [finProdFinEquiv_apply_val, Nat.add_comm]

/-! ## The whole layer -/

/-- The group of 32 a column lies in. -/
abbrev grp (d : Fin 4096) : Fin 128 := ⟨d.val / 32, by have := d.isLt; omega⟩
/-- The column's place inside its group. -/
abbrev pos (d : Fin 4096) : Fin 32 := ⟨d.val % 32, Nat.mod_lt _ (by decide)⟩

/-- The dequantized weight at output row `o`, column `d`: the group's scale times the stored integer. -/
def weight (q : (⟨3, ![16384, 128, 32]⟩ : Shape).Idx → BitVec 32) (sc : FVec Ideal ⟨2, ![16384, 128]⟩ .f32)
    (o : Fin 16384) (d : Fin 4096) : EReal :=
  sc (ix2 o (grp d)) * FloatOps.sitofp (F := Ideal) .f32 (q (ix3 o (grp d) (pos d)))

/-- The layer's result at (b, s, o): the dot product of `x[b, s, :]` with the dequantized row `o`, plus `bias[o]`. -/
def resultAt (x : FVec Ideal ⟨3, ![2, 2048, 4096]⟩ .f32) (q : (⟨3, ![16384, 128, 32]⟩ : Shape).Idx → BitVec 32)
    (sc : FVec Ideal ⟨2, ![16384, 128]⟩ .f32) (bias : FVec Ideal ⟨1, ![16384]⟩ .f32)
    (b : Fin 2) (s : Fin 2048) (o : Fin 16384) : EReal :=
  (∑ d : Fin 4096, x (ix3 b s d) * weight q sc o d) + bias (ix1 o)

/-- The layer's result as an array. -/
def result (x : FVec Ideal ⟨3, ![2, 2048, 4096]⟩ .f32) (q : (⟨3, ![16384, 128, 32]⟩ : Shape).Idx → BitVec 32)
    (sc : FVec Ideal ⟨2, ![16384, 128]⟩ .f32) (bias : FVec Ideal ⟨1, ![16384]⟩ .f32) :
    FVec Ideal ⟨3, ![2, 2048, 16384]⟩ .f32 :=
  fun i => resultAt x q sc bias (i 0) (i 1) (i 2)

/-! ## One tile of the layer: 2048 rows of `x`, 1024 output rows, one run of 256 columns -/

/-- The group of 32, among the tile's 8, a tile column lies in. -/
abbrev grpT (e : Fin 256) : Fin 8 := ⟨e.val / 32, by have := e.isLt; omega⟩
/-- The tile column's place inside its group. -/
abbrev posT (e : Fin 256) : Fin 32 := ⟨e.val % 32, Nat.mod_lt _ (by decide)⟩

/-- The dequantized weight of a tile, whose scales are stored transposed (group-major). -/
def weightT (q : (⟨3, ![1024, 8, 32]⟩ : Shape).Idx → BitVec 32) (sc : FVec Ideal ⟨2, ![8, 1024]⟩ .f32)
    (o : Fin 1024) (e : Fin 256) : EReal :=
  sc (ix2 (grpT e) o) * FloatOps.sitofp (F := Ideal) .f32 (q (ix3 o (grpT e) (posT e)))

/-- A tile's contribution at (r, o): the dot product of the tile's row `r` of `x` with its dequantized row `o`. -/
def termTAt (x : FVec Ideal ⟨2, ![2048, 256]⟩ .f32) (q : (⟨3, ![1024, 8, 32]⟩ : Shape).Idx → BitVec 32)
    (sc : FVec Ideal ⟨2, ![8, 1024]⟩ .f32) (r : Fin 2048) (o : Fin 1024) : EReal :=
  ∑ e : Fin 256, x (ix2 r e) * weightT q sc o e

/-- A tile's contribution as an array. -/
def termT (x : FVec Ideal ⟨2, ![2048, 256]⟩ .f32) (q : (⟨3, ![1024, 8, 32]⟩ : Shape).Idx → BitVec 32)
    (sc : FVec Ideal ⟨2, ![8, 1024]⟩ .f32) : FVec Ideal ⟨2, ![2048, 1024]⟩ .f32 :=
  fun y => termTAt x q sc (y 0) (y 1)

end Cert.QDense

end
-- ==== Proof.RefValue.lean ====
import proofs.«136898_j23493471109657_1_alg».proof.Proof.Gen.ReferenceIdeal.Read
import proofs.«136898_j23493471109657_1_alg».proof.Proof.Spec

/-!
  The reference computes the block-quantized dense layer of `Cert.QDense.result`.

  Its weight matrix is the scales, repeated along each group of 32, times the converted integers, laid out as
  16384 rows of 4096 columns: column `d` of row `o` sits at row-major position `o * 4096 + d`, which in the
  grouped layout is group `d / 32`, place `d % 32` of the same row. The contraction then runs over the 4096
  columns and the bias is repeated over the leading two axes.
-/

noncomputable section

open scoped BigOperators

namespace Cert.QDense.Ref

open Idealize.ShloMosaic Idealize.ShloMosaic.ValueIdx Cert.ReferenceIdeal Cert.ReferenceIdeal.Read Cert.QDense

/-- The reference's weight matrix at (o, d) is the dequantized weight. -/
theorem weight_eq (x1 : (⟨S16384x128x32, .i32⟩ : BufTy).Contents (Elt Ideal))
    (x2 : (⟨S16384x128, .f32⟩ : BufTy).Contents (Elt Ideal)) (o : Fin 16384) (d : Fin 4096) :
    val_main_v4 (F := Ideal) x1 x2 (ix2 o d) = weight x1 x2 o d := by
  have e3 : idx_main_v4 (ix2 o d) = ix3 o (grp d) (pos d) := funext fun a => Fin.ext (by
    match a with
    | ⟨0, _⟩ => show (o.val * 4096 + d.val) / 4096 = o.val; have := d.isLt; omega
    | ⟨1, _⟩ => show (o.val * 4096 + d.val) / 32 % 128 = d.val / 32; have := d.isLt; omega
    | ⟨2, _⟩ => show (o.val * 4096 + d.val) % 32 = d.val % 32; omega)
  have e2 : idx_main_v0 (idx_main_v2 (ix3 o (grp d) (pos d))) = ix2 o (grp d) := funext fun a => Fin.ext (by
    match a with
    | ⟨0, _⟩ => rfl
    | ⟨1, _⟩ => rfl)
  rw [val_main_v4_apply, val_main_v3_apply, val_main_v2_apply, val_main_v0_apply, val_main_v1_apply, e3, e2]
  rfl

/-- The reference's result is the layer's. -/
theorem ref_eq (x0 : (⟨S2x2048x4096, .f32⟩ : BufTy).Contents (Elt Ideal))
    (x1 : (⟨S16384x128x32, .i32⟩ : BufTy).Contents (Elt Ideal))
    (x2 : (⟨S16384x128, .f32⟩ : BufTy).Contents (Elt Ideal))
    (x3 : (⟨S16384, .f32⟩ : BufTy).Contents (Elt Ideal)) :
    val_main_v8 (F := Ideal) x0 x1 x2 x3 = result x0 x1 x2 x3 := by
  funext i
  obtain ⟨b, s, o, rfl⟩ : ∃ (b : Fin 2) (s : Fin 2048) (o : Fin 16384), i = ix3 b s o := ⟨i 0, i 1, i 2, eq_ix3 i⟩
  have eb : idx_main_v6 (idx_main_v7 (ix3 b s o)) = ix1 o := funext fun a => Fin.ext (by
    match a with
    | ⟨0, _⟩ => rfl)
  rw [val_main_v8_apply, val_main_v5_apply, val_main_v7_apply, val_main_v6_apply, eb]
  show (∑ k : Fin 4096, x0 (lidx_main_v5 (ix3 b s o) k) * val_main_v4 (F := Ideal) x1 x2 (ridx_main_v5 (ix3 b s o) k))
      + x3 (ix1 o) = resultAt x0 x1 x2 x3 b s o
  unfold resultAt
  refine congrArg (· + x3 (ix1 o)) (Finset.sum_congr rfl fun k _ => ?_)
  have el : lidx_main_v5 (ix3 b s o) k = ix3 b s k := funext fun a => Fin.ext (by
    match a with
    | ⟨0, _⟩ => rfl
    | ⟨1, _⟩ => rfl
    | ⟨2, _⟩ => rfl)
  have er : ridx_main_v5 (ix3 b s o) k = ix2 o k := funext fun a => Fin.ext (by
    match a with
    | ⟨0, _⟩ => rfl
    | ⟨1, _⟩ => rfl)
  rw [el, er, weight_eq]

end Cert.QDense.Ref

end
-- ==== Proof.Tiles.lean ====
import proofs.«136898_j23493471109657_1_alg».proof.Proof.Spec

/-!
  How one tile's contribution sits inside the whole layer.

  The layer's 4096 columns are cut into 16 runs of 256; its 16384 output rows into 16 tiles of 1024. A tile step is
  handed rows of `x` restricted to one run, and the integers and scales of one tile of output rows restricted to the
  run's 8 groups. Column `256 s + e` lies in group `8 s + e / 32` at place `e % 32`, so the tile's dequantized
  weight at (o, e) is the layer's at (1024 j + o, 256 s + e), and the tile's dot product over its 256 columns is the
  layer's dot product restricted to the run. Summing the 16 runs gives the whole dot product.
-/

noncomputable section

open scoped BigOperators

namespace Cert.QDense

open Idealize.ShloMosaic Idealize.ShloMosaic.ValueIdx

/-- Column `256 s + e` of the 4096: place `e` of run `s`. -/
abbrev colX (s : Fin 16) (e : Fin 256) : Fin 4096 :=
  ⟨256 * s.val + e.val, by have := s.isLt; have := e.isLt; omega⟩
/-- Output row `1024 j + o` of the 16384: row `o` of tile `j`. -/
abbrev rowW (j : Fin 16) (o : Fin 1024) : Fin 16384 :=
  ⟨1024 * j.val + o.val, by have := j.isLt; have := o.isLt; omega⟩
/-- Group `8 s + g` of the 128: group `g` of run `s`. -/
abbrev grpW (s : Fin 16) (g : Fin 8) : Fin 128 :=
  ⟨8 * s.val + g.val, by have := s.isLt; have := g.isLt; omega⟩
/-- Row `2048 b + r` of the 4096 rows `x` is laid out as. -/
abbrev rowX (b : Fin 2) (r : Fin 2048) : Fin 4096 :=
  ⟨2048 * b.val + r.val, by have := b.isLt; have := r.isLt; omega⟩

/-- The term of the layer's dot product at column `d`, as a function of every natural (zero past the last column). -/
def colTerm (X : FVec Ideal ⟨3, ![2, 2048, 4096]⟩ .f32) (Q : (⟨3, ![16384, 128, 32]⟩ : Shape).Idx → BitVec 32)
    (SC : FVec Ideal ⟨2, ![16384, 128]⟩ .f32) (b : Fin 2) (r : Fin 2048) (O : Fin 16384) (d : ℕ) : EReal :=
  if h : d < 4096 then X (ix3 b r ⟨d, h⟩) * weight Q SC O ⟨d, h⟩ else 0

/-- A tile's contribution, when its blocks are the layer's arrays restricted to batch `b`, output tile `j` and
    run `s`, is the layer's dot product restricted to the run. -/
theorem termTAt_of_blocks (X : FVec Ideal ⟨3, ![2, 2048, 4096]⟩ .f32)
    (Q : (⟨3, ![16384, 128, 32]⟩ : Shape).Idx → BitVec 32) (SC : FVec Ideal ⟨2, ![16384, 128]⟩ .f32)
    (x : FVec Ideal ⟨2, ![2048, 256]⟩ .f32) (q : (⟨3, ![1024, 8, 32]⟩ : Shape).Idx → BitVec 32)
    (sc : FVec Ideal ⟨2, ![8, 1024]⟩ .f32) (b : Fin 2) (j s : Fin 16)
    (hx : ∀ (r : Fin 2048) (e : Fin 256), x (ix2 r e) = X (ix3 b r (colX s e)))
    (hq : ∀ (o : Fin 1024) (g : Fin 8) (p : Fin 32), q (ix3 o g p) = Q (ix3 (rowW j o) (grpW s g) p))
    (hsc : ∀ (g : Fin 8) (o : Fin 1024), sc (ix2 g o) = SC (ix2 (rowW j o) (grpW s g)))
    (r : Fin 2048) (o : Fin 1024) :
    termTAt x q sc r o = ∑ e : Fin 256, colTerm X Q SC b r (rowW j o) (256 * s.val + e.val) := by
  unfold termTAt
  refine Finset.sum_congr rfl fun e _ => ?_
  have he : 256 * s.val + e.val < 4096 := by have := s.isLt; have := e.isLt; omega
  have hg : grp (⟨256 * s.val + e.val, he⟩ : Fin 4096) = grpW s (grpT e) :=
    Fin.ext (by show (256 * s.val + e.val) / 32 = 8 * s.val + e.val / 32; omega)
  have hp : pos (⟨256 * s.val + e.val, he⟩ : Fin 4096) = posT e :=
    Fin.ext (by show (256 * s.val + e.val) % 32 = e.val % 32; omega)
  unfold colTerm
  rw [dif_pos he, hx]
  unfold weightT weight
  rw [hsc, hq, hg, hp]

/-- The 16 runs' restricted dot products add up to the layer's dot product. -/
theorem runs_eq (X : FVec Ideal ⟨3, ![2, 2048, 4096]⟩ .f32) (Q : (⟨3, ![16384, 128, 32]⟩ : Shape).Idx → BitVec 32)
    (SC : FVec Ideal ⟨2, ![16384, 128]⟩ .f32) (b : Fin 2) (r : Fin 2048) (O : Fin 16384) :
    ∑ s ∈ Finset.range 16, ∑ e : Fin 256, colTerm X Q SC b r O (256 * s + e.val)
      = ∑ d : Fin 4096, X (ix3 b r d) * weight Q SC O d := by
  rw [← sum_blocks 16 256 (colTerm X Q SC b r O)]
  show ∑ d : Fin 4096, colTerm X Q SC b r O d.val = _
  refine Finset.sum_congr rfl fun d _ => ?_
  unfold colTerm
  exact dif_pos d.isLt

end Cert.QDense

end
-- ==== Proof.Blocks.lean ====
import proofs.«136898_j23493471109657_1_alg».proof.Proof.Gen.KernelIdeal.Frame
import proofs.«136898_j23493471109657_1_alg».proof.Proof.Tiles
import Idealize.ShloMosaic.Lib.Pipeline.Value
import Idealize.ShloMosaic.Lib.ValueIdx
import Idealize.ShloMosaic.Lib.ValueLayout
import Idealize.ShloMosaic.Lib.StableHlo.Run

/-!
  Where each block the kernel's body is handed sits in the layer's argument arrays.

  The 512 grid points are numbered row-major over (batch `b`, output tile `j`, run `s`): point `u` has
  `b = u / 256`, `j = u / 16 % 16`, `s = u % 16`. Before the grid runs, `x` is laid out as 4096 rows (row
  `2048 b + r` is `x[b, r, :]`), the scales are transposed to group-major, and the bias is given a unit leading axis;
  the integers are used as they are. At point `u` the body is handed rows `2048 b …` and columns `256 s …` of `x`;
  output rows `1024 j …` and groups `8 s …` of the integers; groups `8 s …` and output rows `1024 j …` of the
  transposed scales; and entries `1024 j …` of the bias. A block's coordinate in its array is always the block index
  times the block's extent plus the coordinate inside the block.
-/

noncomputable section

namespace Cert.QDense.Blocks

open Idealize.ShloMosaic Idealize.ShloMosaic.TcCoe Idealize.ShloMosaic.ValueIdx Idealize.SL.Sem
open Cert.KernelIdeal Cert.KernelIdeal.Gen Cert.QDense

variable (m : (ℓ : Loc nD τ sig) → Buf (Elt Ideal) ℓ) (c : Dev nD)

/-- The block index of every window at every point, in closed form: decided over the grid. -/
theorem idx_facts : ∀ t : Fin cfg0.N,
    win0_0.index t (0 : Fin 2) = t.val / 256 ∧ win0_0.index t (1 : Fin 2) = t.val % 16
    ∧ win0_1.index t (0 : Fin 3) = t.val / 16 % 16 ∧ win0_1.index t (1 : Fin 3) = t.val % 16
    ∧ win0_1.index t (2 : Fin 3) = 0
    ∧ win0_2.index t (0 : Fin 2) = t.val % 16 ∧ win0_2.index t (1 : Fin 2) = t.val / 16 % 16
    ∧ win0_3.index t (0 : Fin 2) = 0 ∧ win0_3.index t (1 : Fin 2) = t.val / 16 % 16
    ∧ win0_4.index t (0 : Fin 2) = t.val / 256 ∧ win0_4.index t (1 : Fin 2) = t.val / 16 % 16 :=
  (by decide +kernel : ∀ t : Fin grid0.N, _)

/-! ## The arrays as the grid finds them -/

/-- `x` laid out as 4096 rows. -/
theorem entry_x : (V m c main_v0 : FVec Ideal S4096x4096 .f32)
    = shapeCast S4096x4096 (m ((c : Thread nD τ).loc main_arg0)) shapeCasts_S2x2048x4096_S4096x4096 := by
  show StableHlo.after hostOps0 (fun b => m (c, b)) (Proc.devRef .tc main_v0) = _
  after_results
  rfl

/-- The scales, group-major. -/
theorem entry_sc : (V m c main_v1 : FVec Ideal S128x16384 .f32)
    = transpose S128x16384 [1, 0] (m ((c : Thread nD τ).loc main_arg2)) transposes_S16384x128_S128x16384_1_0 := by
  show StableHlo.after hostOps0 (fun b => m (c, b)) (Proc.devRef .tc main_v1) = _
  after_results

/-- The bias as one row. -/
theorem entry_bias : (V m c main_v2 : FVec Ideal S1x16384 .f32)
    = shapeCast S1x16384 (m ((c : Thread nD τ).loc main_arg3)) shapeCasts_S16384_S1x16384 := by
  show StableHlo.after hostOps0 (fun b => m (c, b)) (Proc.devRef .tc main_v2) = _
  after_results
  rfl

/-- Row `2048 b + r` of the re-laid `x` is `x[b, r, :]`. -/
theorem entry_x_apply (b : Fin 2) (r : Fin 2048) (d : Fin 4096) :
    (V m c main_v0 : FVec Ideal S4096x4096 .f32) (ix2 (rowX b r) d) = m ((c : Thread nD τ).loc main_arg0) (ix3 b r d) := by
  rw [entry_x]
  refine shapeCast_apply _ shapeCasts_S2x2048x4096_S4096x4096 _ (ix3 b r d) ?_
  rw [Shape.rowMajor_val_three, Shape.rowMajor_val_two]
  show (b.val * 2048 + r.val) * 4096 + d.val = (2048 * b.val + r.val) * 4096 + d.val
  omega

/-! ## The blocks at a point -/

/-- The block of `x`: batch `b`, run `s`. -/
theorem x_block (u : Fin cfg0.N) (b : Fin 2) (s : Fin 16) (hb : u.val / 256 = b.val) (hs : u.val % 16 = s.val)
    (r : Fin 2048) (e : Fin 256) :
    (iblk m c 0 u : FVec Ideal S2048x256 .f32) (ix2 r e) = m ((c : Thread nD τ).loc main_arg0) (ix3 b r (colX s e)) := by
  obtain ⟨f0, f1, -⟩ := idx_facts u
  refine Eq.trans ?_ (entry_x_apply m c b r (colX s e))
  unfold iblk
  rw [View.read_apply]
  show V m c main_v0 (((cfg0.win 0).blk u).view.emb (ix2 r e)) = V m c main_v0 (ix2 (rowX b r) (colX s e))
  refine congrArg (V m c main_v0 : FVec Ideal S4096x4096 .f32) (funext fun a => Fin.ext ?_)
  match a with
  | ⟨0, _⟩ => show win0_0.index u (0 : Fin 2) * 2048 + 1 * r.val = 2048 * b.val + r.val; rw [f0, hb]; omega
  | ⟨1, _⟩ => show win0_0.index u (1 : Fin 2) * 256 + 1 * e.val = 256 * s.val + e.val; rw [f1, hs]; omega

/-- The block of integers: output tile `j`, the run's 8 groups. -/
theorem q_block (u : Fin cfg0.N) (j s : Fin 16) (hj : u.val / 16 % 16 = j.val) (hs : u.val % 16 = s.val)
    (o : Fin 1024) (g : Fin 8) (p : Fin 32) :
    (iblk m c 1 u : Vec Ideal S1024x8x32 .i32) (ix3 o g p)
      = m ((c : Thread nD τ).loc main_arg1) (ix3 (rowW j o) (grpW s g) p) := by
  obtain ⟨-, -, f0, f1, f2, -⟩ := idx_facts u
  unfold iblk
  rw [View.read_apply]
  show V m c main_arg1 (((cfg0.win 1).blk u).view.emb (ix3 o g p)) = _
  rw [V_main_arg1]
  refine congrArg (m ((c : Thread nD τ).loc main_arg1)) (funext fun a => Fin.ext ?_)
  match a with
  | ⟨0, _⟩ => show win0_1.index u (0 : Fin 3) * 1024 + 1 * o.val = 1024 * j.val + o.val; rw [f0, hj]; omega
  | ⟨1, _⟩ => show win0_1.index u (1 : Fin 3) * 8 + 1 * g.val = 8 * s.val + g.val; rw [f1, hs]; omega
  | ⟨2, _⟩ => show win0_1.index u (2 : Fin 3) * 32 + 1 * p.val = p.val; rw [f2]; omega

/-- The block of transposed scales: the run's 8 groups, output tile `j`. -/
theorem sc_block (u : Fin cfg0.N) (j s : Fin 16) (hj : u.val / 16 % 16 = j.val) (hs : u.val % 16 = s.val)
    (g : Fin 8) (o : Fin 1024) :
    (iblk m c 2 u : FVec Ideal S8x1024 .f32) (ix2 g o) = m ((c : Thread nD τ).loc main_arg2) (ix2 (rowW j o) (grpW s g)) := by
  obtain ⟨-, -, -, -, -, f0, f1, -⟩ := idx_facts u
  refine Eq.trans ?_ ((congrFun (entry_sc m c) (ix2 (grpW s g) (rowW j o))).trans
    (transpose_ix2_apply _ transposes_S16384x128_S128x16384_1_0 (grpW s g) (rowW j o)))
  unfold iblk
  rw [View.read_apply]
  show V m c main_v1 (((cfg0.win 2).blk u).view.emb (ix2 g o)) = V m c main_v1 (ix2 (grpW s g) (rowW j o))
  refine congrArg (V m c main_v1 : FVec Ideal S128x16384 .f32) (funext fun a => Fin.ext ?_)
  match a with
  | ⟨0, _⟩ => show win0_2.index u (0 : Fin 2) * 8 + 1 * g.val = 8 * s.val + g.val; rw [f0, hs]; omega
  | ⟨1, _⟩ => show win0_2.index u (1 : Fin 2) * 1024 + 1 * o.val = 1024 * j.val + o.val; rw [f1, hj]; omega

/-- The block of the bias: output tile `j`. -/
theorem bias_block (u : Fin cfg0.N) (j : Fin 16) (hj : u.val / 16 % 16 = j.val) (o : Fin 1024) :
    (iblk m c 3 u : FVec Ideal S1x1024 .f32) (ix2 (0 : Fin 1) o) = m ((c : Thread nD τ).loc main_arg3) (ix1 (rowW j o)) := by
  obtain ⟨-, -, -, -, -, -, -, f0, f1, -⟩ := idx_facts u
  refine Eq.trans ?_ ((congrFun (entry_bias m c) (ix2 (0 : Fin 1) (rowW j o))).trans
    (shapeCast_apply _ shapeCasts_S16384_S1x16384 _ (ix1 (rowW j o)) ?_))
  · unfold iblk
    rw [View.read_apply]
    show V m c main_v2 (((cfg0.win 3).blk u).view.emb (ix2 (0 : Fin 1) o)) = V m c main_v2 (ix2 (0 : Fin 1) (rowW j o))
    refine congrArg (V m c main_v2 : FVec Ideal S1x16384 .f32) (funext fun a => Fin.ext ?_)
    match a with
    | ⟨0, _⟩ => show win0_3.index u (0 : Fin 2) * 1 + 1 * 0 = 0; rw [f0]
    | ⟨1, _⟩ => show win0_3.index u (1 : Fin 2) * 1024 + 1 * o.val = 1024 * j.val + o.val; rw [f1, hj]; omega
  · rw [Shape.rowMajor_val_one, Shape.rowMajor_val_two]
    show 1024 * j.val + o.val = 0 * 16384 + (1024 * j.val + o.val)
    omega

end Cert.QDense.Blocks

end
-- ==== Proof.Payload.lean ====
import proofs.«136898_j23493471109657_1_alg».proof.Proof.Gen.KernelIdeal.Skeleton
import proofs.«136898_j23493471109657_1_alg».proof.Proof.Spec
import Idealize.ShloMosaic.Lib.Pipeline.Value
import Idealize.ShloMosaic.Lib.ValueLayout
import Idealize.ShloMosaic.PureOps.Ideal.Laws

/-!
  What the kernel's body stores, read at an index over the extended reals.

  The body stores three values. The reset stores the zero block. Every step stores, into the accumulator, the
  accumulator plus the product of the step's 2048 × 256 tile of `x` with the step's 1024 × 256 tile of dequantized
  weights — the tile's scales arrive group-major (8 × 1024), are transposed, given a unit axis, repeated along each
  group of 32 and multiplied by the converted integers, and the 1024 × 8 × 32 result is laid out as 1024 rows of 256
  columns, column `e` being group `e / 32`, place `e % 32`. Narrowing either operand to a shorter float format changes
  nothing over the extended reals, and the product into a zero accumulator is the plain sum over the 256 columns.
  The last step stores, into the output block, the accumulator plus the bias row repeated down the 2048 rows.
-/

noncomputable section

open scoped BigOperators

namespace Cert.QDense.Tile

open Idealize.ShloMosaic Idealize.ShloMosaic.ValueIdx Cert.KernelIdeal Cert.KernelIdeal.Gen Cert.QDense

/-- The tile product's dimension numbers: both operands contract their second axis. -/
abbrev DD : DotDims S2048x256 S1024x256 S2048x1024 := dot_S2048x256_S1024x256_S2048x1024_1_1_0_0_n_n

/-! ## The tile of weights -/

/-- The scales, transposed to row-major, with a unit axis, repeated along each group: at (o, g, p) the scale of
    group `g` of row `o`. -/
theorem scales_apply (sc : FVec Ideal S8x1024 .f32) (o : Fin 1024) (g : Fin 8) (p : Fin 32) :
    broadcastTo S1024x8x32 (shapeCast S1024x8x1 (transpose S1024x8 [1, 0] (shapeCast S8x1024 sc shapeCasts_S8x1024_S8x1024)
      transposes_S8x1024_p1_0_S1024x8) shapeCasts_S1024x8_S1024x8x1) broadcasts_S1024x8x1_S1024x8x32 (ix3 o g p)
      = sc (ix2 g o) := by
  refine (broadcastTo_apply _ broadcasts_S1024x8x1_S1024x8x32 (ix3 o g p) (ix3 o g (0 : Fin 1)) (fun a => ?_)).trans ?_
  · match a with
    | ⟨0, _⟩ => show o.val = if (1024 : Nat) = 1 then 0 else o.val; rw [if_neg (by decide)]
    | ⟨1, _⟩ => show g.val = if (8 : Nat) = 1 then 0 else g.val; rw [if_neg (by decide)]
    | ⟨2, _⟩ => show 0 = if (1 : Nat) = 1 then 0 else p.val; rw [if_pos rfl]
  refine (shapeCast_apply _ shapeCasts_S1024x8_S1024x8x1 (ix3 o g (0 : Fin 1)) (ix2 o g) ?_).trans ?_
  · rw [Shape.rowMajor_val_two, Shape.rowMajor_val_three]
    show o.val * 8 + g.val = (o.val * 8 + g.val) * 1 + 0
    omega
  rw [transpose_ix2_apply, shapeCast_self]

/-- The weights the tile product takes: the repeated scales times the converted integers, as 1024 rows of 256. -/
def wTile (q : IVec S1024x8x32 32) (sc : FVec Ideal S8x1024 .f32) : FVec Ideal S1024x256 .bf16 :=
  truncf .bf16 (shapeCast S1024x256 (mulf (broadcastTo S1024x8x32 (shapeCast S1024x8x1 (transpose S1024x8 [1, 0]
    (shapeCast S8x1024 sc shapeCasts_S8x1024_S8x1024) transposes_S8x1024_p1_0_S1024x8) shapeCasts_S1024x8_S1024x8x1)
    broadcasts_S1024x8x1_S1024x8x32) (sitofp .f32 q)) shapeCasts_S1024x8x32_S1024x256) bitsLt_bf16_f32

/-- At (o, e) it is the tile's dequantized weight. -/
theorem wTile_apply (q : IVec S1024x8x32 32) (sc : FVec Ideal S8x1024 .f32) (o : Fin 1024) (e : Fin 256) :
    wTile q sc (ix2 o e) = weightT q sc o e := by
  unfold wTile weightT
  rw [truncf_apply]
  refine (shapeCast_apply _ shapeCasts_S1024x8x32_S1024x256 (ix2 o e) (ix3 o (grpT e) (posT e)) ?_).trans ?_
  · rw [Shape.rowMajor_val_three, Shape.rowMajor_val_two]
    show (o.val * 8 + e.val / 32) * 32 + e.val % 32 = o.val * 256 + e.val
    omega
  rw [mulf_apply, scales_apply, sitofp_apply]

/-! ## The tile product's operand indices -/

theorem lhs0 (i : S2048x1024.Idx) (k : DD.contr.Idx) : (DD.lhsIdx i k 0).val = (i 0).val := by
  unfold DotDims.lhsIdx
  rw [dif_neg (show ¬(0 : Fin S2048x256.rank) ∈ DD.lhsBatch by decide),
    dif_pos (show (0 : Fin S2048x256.rank) ∈ DD.lhsNonContracting by decide)]
  rfl
theorem lhs1 (i : S2048x1024.Idx) (k : DD.contr.Idx) : (DD.lhsIdx i k 1).val = (k ⟨0, by decide⟩).val :=
  DD.lhsIdx_val_of_single rfl i k
theorem rhs0 (i : S2048x1024.Idx) (k : DD.contr.Idx) : (DD.rhsIdx i k 0).val = (i 1).val := by
  unfold DotDims.rhsIdx
  rw [dif_neg (show ¬(0 : Fin S1024x256.rank) ∈ DD.rhsBatch by decide),
    dif_pos (show (0 : Fin S1024x256.rank) ∈ DD.rhsNonContracting by decide)]
  rfl
theorem rhs1 (i : S2048x1024.Idx) (k : DD.contr.Idx) : (DD.rhsIdx i k 1).val = (k ⟨0, by decide⟩).val :=
  DD.rhsIdx_val_of_single rfl i k

/-! ## The three stored values -/

/-- The reset stores zeros. -/
theorem pay1_apply (y : S2048x1024.Idx) : k0_pay1 (F := Ideal) y = 0 := by
  show shapeCast S2048x1024 (broadcast S2048x1024 (Scalar.ofBits (F := Ideal) .f32 0x00000000#32))
    shapeCasts_S2048x1024_S2048x1024 y = 0
  rw [shapeCast_self]
  exact Ideal.ofBits_zero_f32

/-- A step stores the accumulator plus the tile's contribution, here at (r, o). -/
theorem pay2_apply (x : FVec Ideal S2048x256 .f32) (q : IVec S1024x8x32 32) (sc : FVec Ideal S8x1024 .f32)
    (acc : FVec Ideal S2048x1024 .f32) (r : Fin 2048) (o : Fin 1024) :
    k0_pay2 (F := Ideal) x q sc acc (ix2 r o) = acc (ix2 r o) + termTAt x q sc r o := by
  have hdef : k0_pay2 (F := Ideal) x q sc acc
      = addf acc (matmul DD none (truncf .bf16 (shapeCast S2048x256 x shapeCasts_S2048x256_S2048x256) bitsLt_bf16_f32)
          (wTile q sc) (constant S2048x1024 .f32 0x00000000#32)) :=
    show shapeCast S2048x1024 (addf acc (matmul DD none (truncf .bf16 (shapeCast S2048x256 x shapeCasts_S2048x256_S2048x256)
      bitsLt_bf16_f32) (wTile q sc) (constant S2048x1024 .f32 0x00000000#32))) shapeCasts_S2048x1024_S2048x1024 = _
      from shapeCast_self _ _
  rw [hdef, addf_apply]
  simp only [matmul]
  rw [Ideal.matmul_constant_zero_apply, ← Equiv.sum_comp (contrEquiv1 DD 256 rfl rfl).symm]
  unfold termTAt
  refine congrArg (acc (ix2 r o) + ·) (Finset.sum_congr rfl fun e _ => ?_)
  have hk := contrEquiv1_symm_val DD 256 rfl rfl e
  have el : DD.lhsIdx (ix2 r o) ((contrEquiv1 DD 256 rfl rfl).symm e) = ix2 r e := funext fun a => Fin.ext (by
    match a with
    | ⟨0, _⟩ => exact lhs0 _ _
    | ⟨1, _⟩ => exact (lhs1 _ _).trans hk)
  have er : DD.rhsIdx (ix2 r o) ((contrEquiv1 DD 256 rfl rfl).symm e) = ix2 o e := funext fun a => Fin.ext (by
    match a with
    | ⟨0, _⟩ => exact rhs0 _ _
    | ⟨1, _⟩ => exact (rhs1 _ _).trans hk)
  rw [el, er, truncf_apply, shapeCast_self, wTile_apply]

/-- The same as arrays. -/
theorem pay2_eq (x : FVec Ideal S2048x256 .f32) (q : IVec S1024x8x32 32) (sc : FVec Ideal S8x1024 .f32)
    (acc : FVec Ideal S2048x1024 .f32) :
    k0_pay2 (F := Ideal) x q sc acc = fun y => acc y + termT x q sc y := by
  funext y
  obtain ⟨r, o, rfl⟩ : ∃ (r : Fin 2048) (o : Fin 1024), y = ix2 r o := ⟨y 0, y 1, eq_ix2 y⟩
  exact pay2_apply x q sc acc r o

/-- The last step stores the accumulator plus the bias row, repeated down the rows. -/
theorem pay3_apply (v : FVec Ideal S2048x1024 .f32) (b : FVec Ideal S1x1024 .f32) (r : Fin 2048) (o : Fin 1024) :
    k0_pay3 (F := Ideal) v b (ix2 r o) = v (ix2 r o) + b (ix2 (0 : Fin 1) o) := by
  show v (ix2 r o) + broadcastTo S2048x1024 (shapeCast S1x1024 b shapeCasts_S1x1024_S1x1024)
    broadcasts_S1x1024_S2048x1024 (ix2 r o) = _
  rw [broadcastTo_1b_ab_apply, shapeCast_self]

end Cert.QDense.Tile

end
-- ==== Proof.Pieces.lean ====
import proofs.«136898_j23493471109657_1_alg».proof.Proof.Gen.KernelIdeal.Frame
import Idealize.ShloMosaic.Lib.Pipeline.Value
import Idealize.ShloMosaic.Lib.Tactic

/-!
  What one run of the kernel's body leaves behind, case by case, for any float values.

  The body always loads its blocks whole and stores whole blocks, so each buffer ends holding the payload of the
  last store into it, the payload's loads reading the buffers' contents:
  * at a first reduction step the accumulator is zeroed, read back, and left at the step's update of the zero block;
  * at a middle step it is left at the step's update of what the step before left;
  * at a last step likewise, and the output block is left at that accumulator plus the bias row.
-/

noncomputable section

namespace Cert.QDense.Pieces

open Idealize.ShloMosaic Idealize.ShloMosaic.TcCoe Idealize.SL.Sem Cert.KernelIdeal Cert.KernelIdeal.Gen

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (arg3 : Memref sig .tc .vmem S2048x256 .f32) (harg3 : arg3.IsWhole)
  (arg4 : Memref sig .tc .vmem S1024x8x32 .i32) (harg4 : arg4.IsWhole) (arg5 : Memref sig .tc .vmem S8x1024 .f32) (harg5 : arg5.IsWhole)
  (arg6 : Memref sig .tc .vmem S1x1024 .f32) (harg6 : arg6.IsWhole) (arg7 : Memref sig .tc .vmem S2048x1024 .f32) (harg7 : arg7.IsWhole)
  (arg8 : Memref sig .tc .vmem S2048x1024 .f32) (harg8 : arg8.IsWhole)
  (x0 : Vec F S2048x256 .f32) (x1 : Vec F S1024x8x32 .i32) (x2 : Vec F S8x1024 .f32) (x3 : Vec F S1x1024 .f32)

/-- A first step leaves the accumulator at the step's update of the zero block. -/
theorem acc_first (hc0 : cond0_0 i) (hc1 : ¬cond0_1 i) :
    sout0_A_0 c i arg3 harg3 arg4 harg4 arg5 harg5 arg6 harg6 arg7 harg7 arg8 harg8 hc0 hc1 x0 x1 x2 x3
      = k0_pay2 x0 x1 x2 k0_pay1 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S2048x1024) hz, View.readCov_unit_zero (S := S2048x1024) _ hz]
  simp only [View.readAt_eq_ld, harg3.read_unread, harg4.read_unread, harg5.read_unread,
    View.ld_unit_zero (S := S2048x256) hz, View.ld_unit_zero (S := S1024x8x32) hz3, View.ld_unit_zero (S := S8x1024) hz]

/-- A middle step leaves the accumulator at the step's update of what it held. -/
theorem acc_middle (hc0 : ¬cond0_0 i) (hc1 : ¬cond0_1 i) (xs0 : Vec F S2048x1024 .f32) :
    sout0_B_0 c i arg3 harg3 arg4 harg4 arg5 harg5 arg6 harg6 arg7 harg7 arg8 harg8 hc0 hc1 x0 x1 x2 x3 xs0
      = k0_pay2 x0 x1 x2 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz]
  simp only [View.readAt_eq_ld, harg3.read_unread, harg4.read_unread, harg5.read_unread, harg8.read_unread,
    View.ld_unit_zero (S := S2048x256) hz, View.ld_unit_zero (S := S1024x8x32) hz3, View.ld_unit_zero (S := S8x1024) hz,
    View.ld_unit_zero (S := S2048x1024) hz]

/-- A last step leaves the accumulator likewise … -/
theorem acc_last (hc0 : ¬cond0_0 i) (hc1 : cond0_1 i) (xs0 : Vec F S2048x1024 .f32) :
    sout0_C_0 c i arg3 harg3 arg4 harg4 arg5 harg5 arg6 harg6 arg7 harg7 arg8 harg8 hc0 hc1 x0 x1 x2 x3 xs0
      = k0_pay2 x0 x1 x2 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg5.read_unread, harg8.read_unread,
    View.ld_unit_zero (S := S2048x256) hz, View.ld_unit_zero (S := S1024x8x32) hz3, View.ld_unit_zero (S := S8x1024) hz,
    View.ld_unit_zero (S := S2048x1024) hz]

/-- … and the output block at that accumulator plus the bias row. -/
theorem out_last (hc0 : ¬cond0_0 i) (hc1 : cond0_1 i) (xs0 : Vec F S2048x1024 .f32) :
    out0_C_4 c i arg3 harg3 arg4 harg4 arg5 harg5 arg6 harg6 arg7 harg7 arg8 harg8 hc0 hc1 x0 x1 x2 x3 xs0
      = k0_pay3 (k0_pay2 x0 x1 x2 xs0) x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz, View.readCov_unit_zero (S := S2048x1024) _ hz]
  simp only [View.readAt_eq_ld, harg3.read_unread, harg4.read_unread, harg5.read_unread, harg6.read_unread, harg8.read_unread,
    View.ld_unit_zero (S := S2048x256) hz, View.ld_unit_zero (S := S1024x8x32) hz3, View.ld_unit_zero (S := S8x1024) hz,
    View.ld_unit_zero (S := S2048x1024) hz, View.ld_unit_zero (S := S1x1024) hz]

end Cert.QDense.Pieces

end
-- ==== Proof.Accum.lean ====
import proofs.«136898_j23493471109657_1_alg».proof.Proof.Gen.KernelIdeal.Frame
import proofs.«136898_j23493471109657_1_alg».proof.Proof.Payload
import proofs.«136898_j23493471109657_1_alg».proof.Proof.Pieces
import Idealize.ShloMosaic.Lib.Pipeline.Value

/-!
  What the accumulator and the output block hold after a whole run of 16 reduction steps.

  The grid visits, for each (batch, output tile), the 16 runs of columns in order. The accumulator is zeroed at a run's
  first step and every step adds its tile's contribution, so after the step at offset `j` of the run starting at point
  `16 q` it holds zero plus the contributions of points `16 q … 16 q + j`: a fold over the points of the run, proved by
  induction on the offset, never by enumerating the grid. The last step (offset 15) also stores the accumulator plus
  the bias row into the output block, which is then written back.
-/

noncomputable section

open scoped BigOperators

namespace Cert.QDense.Accum

open Idealize.ShloMosaic Idealize.ShloMosaic.TcCoe Idealize.ShloMosaic.ValueIdx Idealize.SL.Sem
open Cert.KernelIdeal Cert.KernelIdeal.Gen Cert.QDense

variable (m : (ℓ : Loc nD τ sig) → Buf (Elt Ideal) ℓ) (c : Dev nD)

/-- The blocks the body is handed at point `n`. -/
abbrev xAt (n : ℕ) (h : n < cfg0.N) : FVec Ideal S2048x256 .f32 := iblk m c 0 ⟨n, h⟩
abbrev qAt (n : ℕ) (h : n < cfg0.N) : IVec S1024x8x32 32 := iblk m c 1 ⟨n, h⟩
abbrev scAt (n : ℕ) (h : n < cfg0.N) : FVec Ideal S8x1024 .f32 := iblk m c 2 ⟨n, h⟩
abbrev biasAt (n : ℕ) (h : n < cfg0.N) : FVec Ideal S1x1024 .f32 := iblk m c 3 ⟨n, h⟩

/-- What the accumulator holds after the body at point `n`. -/
def accAfter (n : ℕ) (h : n < cfg0.N) : FVec Ideal S2048x1024 .f32 := (outsAt0 m c n h).2

/-- A first step's value: the step's update of the zero block. -/
def resetVal (n : ℕ) (h : n < cfg0.N) : FVec Ideal S2048x1024 .f32 :=
  k0_pay2 (F := Ideal) (xAt m c n h) (qAt m c n h) (scAt m c n h) (k0_pay1 (F := Ideal))

/-- A later step's value: the step's update of what the step before left. -/
def stepVal (n : ℕ) (h : n < cfg0.N) (acc : FVec Ideal S2048x1024 .f32) : FVec Ideal S2048x1024 .f32 :=
  k0_pay2 (F := Ideal) (xAt m c n h) (qAt m c n h) (scAt m c n h) acc

/-- Point `n`'s contribution to the accumulator (zero past the grid). -/
def addend (n : ℕ) : S2048x1024.Idx → EReal := fun y =>
  if h : n < cfg0.N then termT (xAt m c n h) (qAt m c n h) (scAt m c n h) y else 0

/-- At a run's first point the accumulator is reset. -/
theorem acc_reset (n : ℕ) (h : n < cfg0.N) (h0 : n % 16 = 0) : accAfter m c n h = resetVal m c n h := by
  have h1 : ¬n % 16 = 15 := by omega
  refine (congrArg Prod.snd (outsAt0_A m c ⟨n, h⟩ h0 h1)).trans ?_
  dsimp only
  exact Pieces.acc_first (F := Ideal) c (grid0.coords ⟨n, h⟩) (ms0_0 ⟨n, h⟩) (hs0_0 ⟨n, h⟩) (ms0_1 ⟨n, h⟩) (hs0_1 ⟨n, h⟩)
    (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _)
    (iblk m c 0 ⟨n, h⟩) (iblk m c 1 ⟨n, h⟩) (iblk m c 2 ⟨n, h⟩) (iblk m c 3 ⟨n, h⟩)
    ((hcond0_0 ⟨n, h⟩).mpr h0) (fun hh => h1 ((hcond0_1 ⟨n, h⟩).mp hh))

/-- At every other point it is stepped from what the point before left. -/
theorem acc_step (n : ℕ) (h : n + 1 < cfg0.N) (hne : ¬(n + 1) % 16 = 0) :
    accAfter m c (n + 1) h = stepVal m c (n + 1) h (accAfter m c n (Nat.lt_of_succ_lt h)) := by
  by_cases h1 : (n + 1) % 16 = 15
  · refine (congrArg Prod.snd (outsAt0_C m c ⟨n + 1, h⟩ hne h1)).trans ?_
    dsimp only
    exact Pieces.acc_last (F := Ideal) c (grid0.coords ⟨n + 1, h⟩) (ms0_0 ⟨n + 1, h⟩) (hs0_0 ⟨n + 1, h⟩) (ms0_1 ⟨n + 1, h⟩)
      (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩)
      (hs0_4 ⟨n + 1, h⟩) scM0_0 (Memref.isWhole_whole _)
      (iblk m c 0 ⟨n + 1, h⟩) (iblk m c 1 ⟨n + 1, h⟩) (iblk m c 2 ⟨n + 1, h⟩) (iblk m c 3 ⟨n + 1, h⟩)
      (fun hh => hne ((hcond0_0 ⟨n + 1, h⟩).mp hh)) ((hcond0_1 ⟨n + 1, h⟩).mpr h1)
      (outsAt0 m c n (Nat.lt_of_succ_lt h)).2
  · refine (congrArg Prod.snd (outsAt0_B m c ⟨n + 1, h⟩ hne h1)).trans ?_
    dsimp only
    exact Pieces.acc_middle (F := Ideal) c (grid0.coords ⟨n + 1, h⟩) (ms0_0 ⟨n + 1, h⟩) (hs0_0 ⟨n + 1, h⟩) (ms0_1 ⟨n + 1, h⟩)
      (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩)
      (hs0_4 ⟨n + 1, h⟩) scM0_0 (Memref.isWhole_whole _)
      (iblk m c 0 ⟨n + 1, h⟩) (iblk m c 1 ⟨n + 1, h⟩) (iblk m c 2 ⟨n + 1, h⟩) (iblk m c 3 ⟨n + 1, h⟩)
      (fun hh => hne ((hcond0_0 ⟨n + 1, h⟩).mp hh)) (fun hh => h1 ((hcond0_1 ⟨n + 1, h⟩).mp hh))
      (outsAt0 m c n (Nat.lt_of_succ_lt h)).2

/-- The reset value is zero plus the point's contribution. -/
theorem reset_apply (n : ℕ) (h : n < cfg0.N) (y : S2048x1024.Idx) : resetVal m c n h y = 0 + addend m c n y := by
  refine (congrFun (Tile.pay2_eq (xAt m c n h) (qAt m c n h) (scAt m c n h) (k0_pay1 (F := Ideal))) y).trans ?_
  show k0_pay1 (F := Ideal) y + termT (xAt m c n h) (qAt m c n h) (scAt m c n h) y = 0 + addend m c n y
  unfold addend
  rw [Tile.pay1_apply, dif_pos h]

/-- A step adds the point's contribution. -/
theorem step_apply (n : ℕ) (h : n < cfg0.N) (acc : FVec Ideal S2048x1024 .f32) (y : S2048x1024.Idx) :
    stepVal m c n h acc y = acc y + addend m c n y := by
  refine (congrFun (Tile.pay2_eq (xAt m c n h) (qAt m c n h) (scAt m c n h) acc) y).trans ?_
  show acc y + termT (xAt m c n h) (qAt m c n h) (scAt m c n h) y = acc y + addend m c n y
  unfold addend
  rw [dif_pos h]

/-- After the last step of the run starting at point `16 q` the accumulator holds zero plus the 16 contributions. -/
theorem acc_at_last (q : ℕ) (h : 16 * q + 15 < cfg0.N) (y : S2048x1024.Idx) :
    accAfter m c (16 * q + 15) h y = 0 + ∑ s ∈ Finset.range 16, addend m c (16 * q + s) y := by
  rw [Pipeline.eq_accAt (accAfter m c) 16 (resetVal m c) (stepVal m c) (acc_reset m c) (acc_step m c) q 15 (by decide) h]
  exact Pipeline.accAt_add_apply (resetVal m c) (stepVal m c) (fun _ => (0 : EReal)) (addend m c) (16 * q) 15
    (fun hb i => reset_apply m c (16 * q) hb i) (fun n hn acc i _ _ => step_apply m c n hn acc i) 15 (le_refl _) h y

/-- At a run's last point the output block is left at the accumulator plus the bias row. -/
theorem out_at_last (t : Fin cfg0.N) (h15 : t.val % 16 = 15) :
    (outsAt0 m c t.val t.isLt).1 = k0_pay3 (F := Ideal) (accAfter m c t.val t.isLt) (biasAt m c t.val t.isLt) := by
  have h0 : ¬t.val % 16 = 0 := by omega
  have hacc : accAfter m c t.val t.isLt
      = k0_pay2 (F := Ideal) (iblk m c 0 t) (iblk m c 1 t) (iblk m c 2 t)
          (outsAt0 m c (t.val - 1) (Nat.lt_of_le_of_lt (Nat.sub_le _ _) t.isLt)).2 := by
    refine (congrArg Prod.snd (outsAt0_C m c t h0 h15)).trans ?_
    dsimp only
    exact Pieces.acc_last (F := Ideal) c (grid0.coords t) (ms0_0 t) (hs0_0 t) (ms0_1 t) (hs0_1 t) (ms0_2 t) (hs0_2 t) (ms0_3 t)
      (hs0_3 t) (ms0_4 t) (hs0_4 t) scM0_0 (Memref.isWhole_whole _) (iblk m c 0 t) (iblk m c 1 t) (iblk m c 2 t)
      (iblk m c 3 t) (fun hh => h0 ((hcond0_0 t).mp hh)) ((hcond0_1 t).mpr h15)
      (outsAt0 m c (t.val - 1) (Nat.lt_of_le_of_lt (Nat.sub_le _ _) t.isLt)).2
  rw [hacc]
  refine (congrArg Prod.fst (outsAt0_C m c t h0 h15)).trans ?_
  dsimp only
  exact Pieces.out_last (F := Ideal) c (grid0.coords t) (ms0_0 t) (hs0_0 t) (ms0_1 t) (hs0_1 t) (ms0_2 t) (hs0_2 t) (ms0_3 t)
    (hs0_3 t) (ms0_4 t) (hs0_4 t) scM0_0 (Memref.isWhole_whole _) (iblk m c 0 t) (iblk m c 1 t) (iblk m c 2 t)
    (iblk m c 3 t) (fun hh => h0 ((hcond0_0 t).mp hh)) ((hcond0_1 t).mpr h15)
    (outsAt0 m c (t.val - 1) (Nat.lt_of_le_of_lt (Nat.sub_le _ _) t.isLt)).2

/-- So, entry by entry, the block written back after the run starting at point `16 q` is zero plus the run's 16
    contributions plus the bias entry of its column. -/
theorem out_at_last_apply (q : ℕ) (h : 16 * q + 15 < cfg0.N) (r : Fin 2048) (o : Fin 1024) :
    (outsAt0 m c (16 * q + 15) h).1 (ix2 r o)
      = (0 + ∑ s ∈ Finset.range 16, addend m c (16 * q + s) (ix2 r o))
        + biasAt m c (16 * q + 15) h (ix2 (0 : Fin 1) o) := by
  have e := out_at_last m c ⟨16 * q + 15, h⟩ (by show (16 * q + 15) % 16 = 15; omega)
  refine (congrFun e (ix2 r o)).trans ?_
  refine (Tile.pay3_apply (accAfter m c (16 * q + 15) h) (biasAt m c (16 * q + 15) h) r o).trans ?_
  rw [acc_at_last m c q h (ix2 r o)]

end Cert.QDense.Accum

end
-- ==== Proof.KernelValue.lean ====
import proofs.«136898_j23493471109657_1_alg».proof.Proof.Gen.KernelIdeal.Frame
import proofs.«136898_j23493471109657_1_alg».proof.Proof.Tiles
import proofs.«136898_j23493471109657_1_alg».proof.Proof.Blocks
import proofs.«136898_j23493471109657_1_alg».proof.Proof.Accum
import Idealize.ShloMosaic.Lib.Pipeline.Value
import Idealize.ShloMosaic.Lib.StableHlo.Run

/-!
  What the kernel's result array holds after the whole grid has run.

  The output is laid out as 4096 rows of 16384 and written back in blocks of 2048 × 1024, one per (batch, output tile),
  after the last of that block's 16 reduction steps. Entry (r, o) of the block of batch `b` and tile `j` is zero plus the
  sum over the 16 runs of the runs' restricted dot products plus the bias entry: the layer's result at
  (b, r, 1024 j + o). So every written-back block is the restriction of one function of the argument arrays, the blocks
  cover the array, and the final re-layout to (2, 2048, 16384) reads row `2048 b + r` back as (b, r).
-/

noncomputable section

open scoped BigOperators

namespace Cert.QDense.KernelValue

open Idealize.ShloMosaic Idealize.ShloMosaic.TcCoe Idealize.ShloMosaic.ValueIdx Idealize.SL.Sem
open Idealize.ShloMosaic.Pipeline (Dat)
open Cert.KernelIdeal Cert.KernelIdeal.Gen Cert.QDense

variable (m : (ℓ : Loc nD τ sig) → Buf (Elt Ideal) ℓ) (ρ : Dev nD → PrngReg) (c : Dev nD)

/-- The argument arrays as launched. -/
abbrev argX : FVec Ideal ⟨3, ![2, 2048, 4096]⟩ .f32 := m ((c : Thread nD τ).loc main_arg0)
abbrev argQ : (⟨3, ![16384, 128, 32]⟩ : Shape).Idx → BitVec 32 := m ((c : Thread nD τ).loc main_arg1)
abbrev argSC : FVec Ideal ⟨2, ![16384, 128]⟩ .f32 := m ((c : Thread nD τ).loc main_arg2)
abbrev argB : FVec Ideal ⟨1, ![16384]⟩ .f32 := m ((c : Thread nD τ).loc main_arg3)

/-- The layer's result laid out as 4096 rows: row `R` is batch `R / 2048`, position `R % 2048`. -/
def flat (X : FVec Ideal ⟨3, ![2, 2048, 4096]⟩ .f32) (Q : (⟨3, ![16384, 128, 32]⟩ : Shape).Idx → BitVec 32)
    (SC : FVec Ideal ⟨2, ![16384, 128]⟩ .f32) (B : FVec Ideal ⟨1, ![16384]⟩ .f32) : FVec Ideal S4096x16384 .f32 :=
  fun i => resultAt X Q SC B ⟨(i 0).val / 2048, by have : (i 0).val < 4096 := (i 0).isLt; omega⟩
    ⟨(i 0).val % 2048, Nat.mod_lt _ (by decide)⟩ (i 1)

theorem flat_apply (X : FVec Ideal ⟨3, ![2, 2048, 4096]⟩ .f32) (Q : (⟨3, ![16384, 128, 32]⟩ : Shape).Idx → BitVec 32)
    (SC : FVec Ideal ⟨2, ![16384, 128]⟩ .f32) (B : FVec Ideal ⟨1, ![16384]⟩ .f32) (i : S4096x16384.Idx)
    (b : Fin 2) (r : Fin 2048) (O : Fin 16384) (h0 : (i 0).val = 2048 * b.val + r.val) (h1 : (i 1).val = O.val) :
    flat X Q SC B i = resultAt X Q SC B b r O := by
  have key : ∀ (b' : Fin 2) (r' : Fin 2048) (O' : Fin 16384), b' = b → r' = r → O' = O →
      resultAt X Q SC B b' r' O' = resultAt X Q SC B b r O := by
    rintro _ _ _ rfl rfl rfl; rfl
  unfold flat
  exact key _ _ _ (Fin.ext (by show (i 0).val / 2048 = b.val; have := r.isLt; omega))
    (Fin.ext (by show (i 0).val % 2048 = r.val; have := r.isLt; omega)) (Fin.ext h1)

/-- What a point that writes back writes is its block of the layer's result. -/
theorem flushed_eq (t : Fin cfg0.N) (hf : (cfg0.win 4).flush t = true) :
    (dats m 0 c).flushed 4 t
      = ((cfg0.win 4).blk t).view.read (Elt Ideal) (flat (argX m c) (argQ m c) (argSC m c) (argB m c)) := by
  have h15 : t.val % 16 = 15 := (flush0_4 t).mp hf
  have hN : cfg0.N = 512 := N_0
  obtain ⟨tv, tlt⟩ := t
  obtain ⟨q, rfl⟩ : ∃ q, tv = 16 * q + 15 := ⟨tv / 16, by dsimp only at h15; omega⟩
  have hq : q < 32 := by omega
  obtain ⟨-, -, -, -, -, -, -, -, -, f0, f1⟩ := Blocks.idx_facts ⟨16 * q + 15, tlt⟩
  dsimp only at f0 f1
  show (cfg0.win 4).cut (grid0.coords ⟨16 * q + 15, tlt⟩) ((dats m 0 c).after 4 ⟨16 * q + 15, tlt⟩) = _
  rw [after0_4]
  show ((outsAt0 m c (16 * q + 15) tlt).1 : FVec Ideal S2048x1024 .f32)
    = (((cfg0.win 4).blk ⟨16 * q + 15, tlt⟩).view.read (Elt Ideal) (flat (argX m c) (argQ m c) (argSC m c) (argB m c))
        : FVec Ideal S2048x1024 .f32)
  funext y
  obtain ⟨r, o, rfl⟩ : ∃ (r : Fin 2048) (o : Fin 1024), y = ix2 r o := ⟨y 0, y 1, eq_ix2 y⟩
  rw [View.read_apply]
  show (outsAt0 m c (16 * q + 15) tlt).1 (ix2 r o)
    = flat (argX m c) (argQ m c) (argSC m c) (argB m c) (((cfg0.win 4).blk ⟨16 * q + 15, tlt⟩).view.emb (ix2 r o))
  let bq : Fin 2 := ⟨q / 16, by omega⟩
  let jq : Fin 16 := ⟨q % 16, Nat.mod_lt _ (by decide)⟩
  rw [flat_apply (argX m c) (argQ m c) (argSC m c) (argB m c) _ bq r (rowW jq o)
    (by show win0_4.index ⟨16 * q + 15, tlt⟩ (0 : Fin 2) * 2048 + 1 * r.val = 2048 * (q / 16) + r.val; rw [f0]; omega)
    (by show win0_4.index ⟨16 * q + 15, tlt⟩ (1 : Fin 2) * 1024 + 1 * o.val = 1024 * (q % 16) + o.val; rw [f1]; omega)]
  rw [Accum.out_at_last_apply m c q tlt r o]
  have hsum : ∑ s ∈ Finset.range 16, Accum.addend m c (16 * q + s) (ix2 r o)
      = ∑ s ∈ Finset.range 16, ∑ e : Fin 256, colTerm (argX m c) (argQ m c) (argSC m c) bq r (rowW jq o) (256 * s + e.val) := by
    refine Finset.sum_congr rfl fun s hs => ?_
    have hs' : s < 16 := Finset.mem_range.mp hs
    have hlt : 16 * q + s < cfg0.N := by omega
    show (if h : 16 * q + s < cfg0.N then termT (Accum.xAt m c _ h) (Accum.qAt m c _ h) (Accum.scAt m c _ h) (ix2 r o) else 0) = _
    rw [dif_pos hlt]
    exact termTAt_of_blocks (argX m c) (argQ m c) (argSC m c) (Accum.xAt m c _ hlt) (Accum.qAt m c _ hlt)
      (Accum.scAt m c _ hlt) bq jq ⟨s, hs'⟩
      (fun r e => Blocks.x_block m c ⟨16 * q + s, hlt⟩ bq ⟨s, hs'⟩ (by show (16 * q + s) / 256 = q / 16; omega)
        (by show (16 * q + s) % 16 = s; omega) r e)
      (fun o g p => Blocks.q_block m c ⟨16 * q + s, hlt⟩ jq ⟨s, hs'⟩ (by show (16 * q + s) / 16 % 16 = q % 16; omega)
        (by show (16 * q + s) % 16 = s; omega) o g p)
      (fun g o => Blocks.sc_block m c ⟨16 * q + s, hlt⟩ jq ⟨s, hs'⟩ (by show (16 * q + s) / 16 % 16 = q % 16; omega)
        (by show (16 * q + s) % 16 = s; omega) g o) r o
  rw [hsum, runs_eq, zero_add]
  unfold resultAt
  exact congrArg (HAdd.hAdd _)
    (Blocks.bias_block m c ⟨16 * q + 15, tlt⟩ jq (by show (16 * q + 15) / 16 % 16 = q % 16; omega) o)

/-- Every entry of the array lies in the block some point writes back. -/
theorem cover (i : S4096x16384.Idx) :
    ∃ t : Fin cfg0.N, (cfg0.win 4).flush t = true ∧ i ∈ ((cfg0.win 4).blk t).view.set := by
  have hN : cfg0.N = 512 := N_0
  have hi0 : (i 0).val < 4096 := (i 0).isLt
  have hi1 : (i 1).val < 16384 := (i 1).isLt
  have ht : 256 * ((i 0).val / 2048) + 16 * ((i 1).val / 1024) + 15 < cfg0.N := by omega
  obtain ⟨-, -, -, -, -, -, -, -, -, f0, f1⟩ := Blocks.idx_facts ⟨_, ht⟩
  dsimp only at f0 f1
  refine ⟨⟨_, ht⟩, (flush0_4 ⟨_, ht⟩).mpr (by show (256 * ((i 0).val / 2048) + 16 * ((i 1).val / 1024) + 15) % 16 = 15; omega), ?_⟩
  show i ∈ ((View.whole main_v3).slice (win0_4.rect ⟨_, ht⟩)).set
  rw [View.set_slice_whole, Rect.mem_set_unit]
  intro a
  match a with
  | ⟨0, _⟩ =>
    show win0_4.index ⟨_, ht⟩ (0 : Fin 2) * 2048 ≤ (i 0).val ∧ (i 0).val < win0_4.index ⟨_, ht⟩ (0 : Fin 2) * 2048 + 2048
    rw [f0]; omega
  | ⟨1, _⟩ =>
    show win0_4.index ⟨_, ht⟩ (1 : Fin 2) * 1024 ≤ (i 1).val ∧ (i 1).val < win0_4.index ⟨_, ht⟩ (1 : Fin 2) * 1024 + 1024
    rw [f1]; omega

/-- So the array the grid writes ends holding the layer's result, laid out as 4096 rows. -/
theorem final : (dats m 0 c).arrAt 4 cfg0.N = flat (argX m c) (argQ m c) (argSC m c) (argB m c) :=
  (dats m 0 c).arrAt_eq_of_cover 4 (flat (argX m c) (argQ m c) (argSC m c) (argB m c))
    (fun t hf => flushed_eq m c t hf) (cover)

/-- The last re-layout reads row `2048 b + r` back as (b, r): the result array holds the layer's result. -/
theorem tail_result :
    Pipeline.afterTail₀ cfgs (dats m) 0 (V0 m) [hostOps1] c main_v4
      = result (argX m c) (argQ m c) (argSC m c) (argB m c) := by
  unfold Pipeline.afterTail₀
  show StableHlo.after hostOps1 _ (Proc.devRef .tc main_v4) = _
  after_results
  refine funext fun (i : S2x2048x16384.Idx) => ?_
  obtain ⟨b, s, o, rfl⟩ : ∃ (b : Fin 2) (s : Fin 2048) (o : Fin 16384), i = ix3 b s o := ⟨i 0, i 1, i 2, eq_ix3 i⟩
  have hw : (Pipeline.withArrays spec0 c (V0 m c) (fun w => (dats m 0 c).arrAt w cfg0.N) (Proc.devRef .tc main_v3)
      : FVec Ideal S4096x16384 .f32) = flat (argX m c) (argQ m c) (argSC m c) (argB m c) :=
    (Pipeline.withArrays_arr spec0 launch0.win.arr_inj c (V0 m c) (fun w => (dats m 0 c).arrAt w cfg0.N) 4).trans (final m c)
  show shapeCast S2x2048x16384 (Pipeline.withArrays spec0 c (V0 m c) (fun w => (dats m 0 c).arrAt w cfg0.N)
      (Proc.devRef .tc main_v3) : FVec Ideal S4096x16384 .f32) shapeCasts_S4096x16384_S2x2048x16384 (ix3 b s o)
    = resultAt (argX m c) (argQ m c) (argSC m c) (argB m c) b s o
  rw [hw]
  refine (shapeCast_apply _ shapeCasts_S4096x16384_S2x2048x16384 (ix3 b s o) (ix2 (rowX b s) o) ?_).trans ?_
  · rw [Shape.rowMajor_val_two, Shape.rowMajor_val_three]
    show (2048 * b.val + s.val) * 16384 + o.val = (b.val * 2048 + s.val) * 16384 + o.val
    omega
  · exact flat_apply _ _ _ _ _ b s o rfl rfl

/-- The run, read: every weakly fair execution ends with the result array at the layer's result of the argument
    arrays as launched, and the argument arrays unchanged. -/
theorem run : θ_run defs (onTc (τ := τ) (main (F := Ideal))) ⟨m, fun _ => 0, ρ⟩ (fun r => ∀ c : Dev nD,
      r.2.mem ((c.tc : Thread nD τ).loc main_v4) = result (argX m c) (argQ m c) (argSC m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v4 (Pipeline.mem_restRefs_of main_v4 (by decide) (by decide))).trans (tail_result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.QDense.KernelValue

end
-- ==== Proof.lean ====
/-
  A block-quantized dense layer, computed tile by tile, against the same layer computed whole.

  The layer: `x` has shape (2, 2048, 4096); the weight matrix is stored as integers `qs` of shape (16384, 128, 32) —
  128 groups of 32 columns per output row — with one scale per group, `scales` of shape (16384, 128); `bias` has 16384
  entries. Column `d` of output row `o` of the dequantized matrix is `scales[o, d / 32] * qs[o, d / 32, d % 32]`, and
  the result at (b, s, o) is the dot product of `x[b, s, :]` with that row, plus `bias[o]`.

  The whole computation repeats each scale along its group, multiplies by the converted integers, lays the product out
  as 16384 rows of 4096 columns, contracts it with `x` over the 4096 columns and adds the bias.

  The tiled computation lays `x` out as 4096 rows, transposes the scales and walks a grid of 2 × 16 × 16 points over
  (batch, tile of 1024 output rows, run of 256 columns). Each point multiplies its 2048 × 256 tile of `x` by its
  1024 × 256 tile of dequantized weights and adds the product into an accumulator that the first run of each
  (batch, output tile) zeroes; the last run adds the bias row and writes the 2048 × 1024 block out. Over the extended
  reals narrowing an operand's float format changes nothing and a product into a zero accumulator is a plain sum, so
  the accumulator ends at zero plus the sum, over the 16 runs, of the runs' restricted dot products. The two results
  differ only in how one sum of 4096 terms is grouped: 16 consecutive runs of 256 against all at once. Associativity
  and commutativity of addition hold at the infinities too, so nothing about the inputs' finiteness is used, and the
  factors of every term appear in the same order on both sides.

  The modules: `Spec` states the layer and the splitting of a sum into runs; `RefValue` reads the whole computation as
  the layer; `Payload` reads what a grid point's body stores, entry by entry; `Pieces` says what each kind of point
  leaves in the accumulator and the output block; `Tiles` places a tile's term inside the whole dot product; `Blocks`
  places each operand block inside its argument array; `Accum` folds the 16 steps of a run; `KernelValue` reads the
  result array after the grid and the final re-layout. The program over the extended reals is the original's own
  text read there, so there is nothing to preserve beyond that.
-/
import proofs.«136898_j23493471109657_1_alg».proof.Defs
import proofs.«136898_j23493471109657_1_alg».proof.Proof.Gen.Kernel
import proofs.«136898_j23493471109657_1_alg».proof.Proof.Gen.Kernel.Skeleton
import proofs.«136898_j23493471109657_1_alg».proof.Proof.Gen.Kernel.Launch
import proofs.«136898_j23493471109657_1_alg».proof.Proof.Gen.Kernel.Points
import proofs.«136898_j23493471109657_1_alg».proof.Proof.Gen.Kernel.Frame
import proofs.«136898_j23493471109657_1_alg».proof.Proof.Gen.KernelIdeal
import proofs.«136898_j23493471109657_1_alg».proof.Proof.Gen.KernelIdeal.Skeleton
import proofs.«136898_j23493471109657_1_alg».proof.Proof.Gen.KernelIdeal.Launch
import proofs.«136898_j23493471109657_1_alg».proof.Proof.Gen.KernelIdeal.Points
import proofs.«136898_j23493471109657_1_alg».proof.Proof.Gen.KernelIdeal.Frame
import proofs.«136898_j23493471109657_1_alg».proof.Proof.Gen.ReferenceIdeal
import proofs.«136898_j23493471109657_1_alg».proof.Proof.Gen.ReferenceIdeal.Run
import proofs.«136898_j23493471109657_1_alg».proof.Proof.Gen.ReferenceIdeal.Read
import proofs.«136898_j23493471109657_1_alg».proof.Proof.Gen.Pre_finite_inputs
import proofs.«136898_j23493471109657_1_alg».proof.Proof.RefValue
import proofs.«136898_j23493471109657_1_alg».proof.Proof.KernelValue
import Idealize.ShloMosaic.Adequacy
import Idealize.ShloMosaic.Init

noncomputable section

namespace Cert.Proof

open Idealize.ShloMosaic Idealize.SL.Sem

/-- The tiled program at the word level runs to the end and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- So does the whole computation: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- Over the extended reals, from memories that agree on the four arguments, both programs end with the layer's
    result of those arguments. -/
theorem algebraic : Cert.algebraic_KernelIdeal_ReferenceIdeal := by
  intro m ρ m' ρ' _ hagree
  refine ⟨fun c => Cert.QDense.result (Cert.QDense.KernelValue.argX m c) (Cert.QDense.KernelValue.argQ m c)
    (Cert.QDense.KernelValue.argSC m c) (Cert.QDense.KernelValue.argB m c), Cert.QDense.KernelValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v8_eq, Cert.QDense.Ref.ref_eq, (hagree c).1, (hagree c).2.1,
    (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
